-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S128x2 .f32) (main_arg6 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x2 .f32 := Host.absf main_arg5
  let main_cst_6 : FVec F S_ .f32 := constant S_ .f32 0x7F800000#32
  let main_v20 : FVec F S128x2 .f32 := broadcastInDim S128x2 ![] bcast_S_S128x2 main_cst_6
  let main_v21 : IVec S128x2 1 := cmpf .olt main_v19 main_v20
  let main_c_7 : IVec S_ 1 := constantI S_ 1 1#1
  let main_v22 : IVec S_ 1 := (fun x v => Host.reduce IntOp.andi x v reducesTo_S128x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000 .f32) (main_arg3 : FVec F S256x128 .f32) (main_arg4 : FVec F S128 .f32) (main_arg5 : FVec F S128x2 .f32) (main_arg6 : FVec F S2 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 71
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x2, .f32⟩
  | .hbm, ⟨6, _⟩ => ⟨S2, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S1x2, .f32⟩
  | .hbm, ⟨70, _⟩ => ⟨S100000x2, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x2, .f32⟩
  | .local _ .vmem, ⟨8, _⟩ => ⟨S1x2, .f32⟩
  | .local _ .vmem, ⟨9, _⟩ => ⟨S5000x2, .f32⟩
  | .local _ .vmem, ⟨10, _⟩ => ⟨S5000x2, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2_S1x2 : S2.ShapeCasts S1x2
  shapeCasts_S5000x128_S5000x128 : S5000x128.ShapeCasts S5000x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2.size a ≤ S128x2.size a
  hwx1_1 : ∀ i : grid1.Coords, EltTy.bits .f32 = 32 ∨ (Rect.block (s := S128x2) S128x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2.size a ≤ S1x2.size a
  hwx1_2 : ∀ i : grid1.Coords, EltTy.bits .f32 = 32 ∨ (Rect.block (s := S1x2) S1x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x2.size a ≤ S100000x2.size a
  hwx1_3 : ∀ i : grid1.Coords, EltTy.bits .f32 = 32 ∨ (Rect.block (s := S100000x2) S5000x2.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x2 : Shape := ⟨2, ![100000, 2]⟩
abbrev S1x2 : Shape := ⟨2, ![1, 2]⟩

abbrev nBuf : Space → Nat
  | .hbm => 73
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x2, .f32⟩
  | .hbm, ⟨6, _⟩ => ⟨S2, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S100000x2, .f32⟩
  | .hbm, ⟨70, _⟩ => ⟨S1x2, .f32⟩
  | .hbm, ⟨71, _⟩ => ⟨S100000x2, .f32⟩
  | .hbm, ⟨72, _⟩ => ⟨S100000x2, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.Spec.lean ====
/-
  What both programs compute, as one function of the seven arguments.

  A graph convolution followed by a linear head. With x the node features [100000, 256], W1 [256, 128] the
  convolution's weight, the transformed features are the matrix product h = x · W1. The edge list (with one self
  loop per node, weight 1) gives each edge the symmetric normalisation d^(-1/2)[src] · w · d^(-1/2)[dst], d the
  weighted in-degree; the aggregation `agg h` scatters the normalised messages norm[e] · h[src e] into their
  destination rows and adds the bias b1. The result is agg(h) · W2 + b2, an array [100000, 2].

  The aggregation is the same chain of host operations in both programs, so it is carried as ONE function `agg` of
  the transformed features (and of the edge list, the edge weights and b1), never opened: the two programs differ only
  in how they take the two matrix products, and at the extended reals each product's entry (r, c) is the plain sum
  over k of left[r, k] · right[k, c].
-/
import proofs.«163526_j33500744908950_1_alg».proof.Proof.Gen.ReferenceIdeal.Read
import Idealize.ShloMosaic.Lib.ValueIdx

noncomputable section

namespace Cert.ReferenceIdeal.Spec

open Cert.ReferenceIdeal Cert.ReferenceIdeal.Gen Cert.ReferenceIdeal.Read
open Idealize.ShloMosaic Idealize.ShloMosaic.TcCoe Idealize.ShloMosaic.ValueIdx

variable {F : FTy → Type} [FloatOps F]

/-- The aggregation as a function of the transformed features `h`: the messages norm[e] · h[src e] (a row gather of
    `h` at the sources, scaled by the edge's normalisation spread over the 128 columns) summed into their destination
    rows from zero, plus the bias row `x4` spread over the nodes. The sources, destinations and normalisation are the
    stages of the edge list `x1` and the edge weights `x2` that do not read `h`. -/
def agg (h : (⟨S100000x128, .f32⟩ : BufTy).Contents (Elt F)) (x1 : (⟨S2x1600000, .i32⟩ : BufTy).Contents (Elt F))
    (x2 : (⟨S1600000, .f32⟩ : BufTy).Contents (Elt F)) (x4 : (⟨S128, .f32⟩ : BufTy).Contents (Elt F)) :
    (⟨S100000x128, .f32⟩ : BufTy).Contents (Elt F) :=
  addf (Host.scatterAdd scatter_S100000x128_S1700000x1_S1700000x128_1_0_0_1 (val_main_v43 (F := F)) (val_main_v44 (F := F) x1)
      (mulf (val_main_v41 (F := F) x1 x2)
        (Host.gather gather_S100000x128_S1700000x1_S1700000x128_1_0_n_n_0_1_1128 h (val_main_v39 (F := F) x1))))
    (val_main_v47 (F := F) x4)

/-- The reference's aggregated features are `agg` of its transformed features. -/
theorem val_main_v48_eq_agg (x0 : (⟨S100000x256, .f32⟩ : BufTy).Contents (Elt F)) (x1 : (⟨S2x1600000, .i32⟩ : BufTy).Contents (Elt F))
    (x2 : (⟨S1600000, .f32⟩ : BufTy).Contents (Elt F)) (x3 : (⟨S256x128, .f32⟩ : BufTy).Contents (Elt F))
    (x4 : (⟨S128, .f32⟩ : BufTy).Contents (Elt F)) :
    val_main_v48 (F := F) x0 x1 x2 x3 x4 = agg (val_main_v32 (F := F) x0 x3) x1 x2 x4 := rfl

/-- The transformed features: entry (r, c) of x · W1 is the sum over k of x[r, k] · W1[k, c]. -/
def feat (x : S100000x256.Idx → EReal) (w : S256x128.Idx → EReal) : S100000x128.Idx → EReal :=
  fun i => ∑ k : Fin 256, x (ix2 (⟨(i 0).val, idx2_lt0 i⟩ : Fin 100000) k) * w (ix2 k (⟨(i 1).val, idx2_lt1 i⟩ : Fin 128))

/-- The linear head: entry (r, c) of a · W2 + b2 is the sum over k of a[r, k] · W2[k, c], plus b2[c]. -/
def head (a : S100000x128.Idx → EReal) (w : S128x2.Idx → EReal) (b : S2.Idx → EReal) : S100000x2.Idx → EReal :=
  fun i => (∑ k : Fin 128, a (ix2 (⟨(i 0).val, idx2_lt0 i⟩ : Fin 100000) k) * w (ix2 k (⟨(i 1).val, idx2_lt1 i⟩ : Fin 2)))
    + b (ix1 (⟨(i 1).val, idx2_lt1 i⟩ : Fin 2))

/-- The result of both programs: the head of the aggregation of the transformed features. -/
def out (x0 : S100000x256.Idx → EReal) (x1 : (⟨S2x1600000, .i32⟩ : BufTy).Contents (Elt Ideal)) (x2 : S1600000.Idx → EReal)
    (x3 : S256x128.Idx → EReal) (x4 : S128.Idx → EReal) (x5 : S128x2.Idx → EReal) (x6 : S2.Idx → EReal) : S100000x2.Idx → EReal :=
  head (agg (F := Ideal) (feat x0 x3) x1 x2 x4) x5 x6

/-- The reference's first matrix product is `feat`. -/
theorem val_main_v32_eq_feat (x0 : S100000x256.Idx → EReal) (x3 : S256x128.Idx → EReal) :
    val_main_v32 (F := Ideal) x0 x3 = feat x0 x3 := by
  funext i
  rw [val_main_v32_apply]
  unfold feat
  refine Finset.sum_congr rfl fun k _ => ?_
  have el : lidx_main_v32 i k = ix2 (⟨(i 0).val, idx2_lt0 i⟩ : Fin 100000) k :=
    funext fun a => by match a with | ⟨0, _⟩ => rfl | ⟨1, _⟩ => rfl
  have er : ridx_main_v32 i k = ix2 k (⟨(i 1).val, idx2_lt1 i⟩ : Fin 128) :=
    funext fun a => by match a with | ⟨0, _⟩ => rfl | ⟨1, _⟩ => rfl
  rw [el, er]

/-- The reference's result is `out` of its arguments: its second matrix product read as a sum over the 128 columns
    of the aggregated features, its bias spread over the rows read at the column. -/
theorem val_main_v52_eq_out (x0 : S100000x256.Idx → EReal) (x1 : (⟨S2x1600000, .i32⟩ : BufTy).Contents (Elt Ideal)) (x2 : S1600000.Idx → EReal)
    (x3 : S256x128.Idx → EReal) (x4 : S128.Idx → EReal) (x5 : S128x2.Idx → EReal) (x6 : S2.Idx → EReal) :
    val_main_v52 (F := Ideal) x0 x1 x2 x3 x4 x5 x6 = out x0 x1 x2 x3 x4 x5 x6 := by
  funext i
  rw [val_main_v52_apply, val_main_v49_apply, val_main_v51_apply, val_main_v50_apply, val_main_v48_eq_agg, val_main_v32_eq_feat]
  unfold out head
  have eb : idx_main_v50 (idx_main_v51 i) = ix1 (⟨(i 1).val, idx2_lt1 i⟩ : Fin 2) :=
    funext fun a => by match a with | ⟨0, _⟩ => rfl
  rw [eb]
  show (∑ k : Fin 128, _) + _ = _
  refine congrArg (· + x6 (ix1 (⟨(i 1).val, idx2_lt1 i⟩ : Fin 2))) (Finset.sum_congr rfl fun k _ => ?_)
  have el : lidx_main_v49 i k = ix2 (⟨(i 0).val, idx2_lt0 i⟩ : Fin 100000) k :=
    funext fun a => by match a with | ⟨0, _⟩ => rfl | ⟨1, _⟩ => rfl
  have er : ridx_main_v49 i k = ix2 k (⟨(i 1).val, idx2_lt1 i⟩ : Fin 2) :=
    funext fun a => by match a with | ⟨0, _⟩ => rfl | ⟨1, _⟩ => rfl
  rw [el, er]

end Cert.ReferenceIdeal.Spec

end
-- ==== Proof.KRun.lean ====
/-
  The idealized kernel's run with its result named. The program is two pallas regions among stretches of host
  operations; its buffers at each segment boundary are a fold through the program (host stretch: the operations'
  results; region: each window's array at what the write-backs leave). Run from any memory with zero counters, every
  weakly fair execution terminates, and at the end every unscoped buffer holds the last boundary's contents: read at
  the result buffer that is the second region's output array after its write-backs, and at each argument the launch
  contents.
-/
import proofs.«163526_j33500744908950_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents there, and the seven argument arrays end as launched. -/
theorem run_main : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Val

end
-- ==== Proof.KBlocks0.lean ====
/-
  The first region: the transformed features, block by block.

  The grid has 20 points; point t loads rows 5000·t … 5000·t + 4999 of x (all 256 columns) and the whole of W1, and
  writes back rows 5000·t … of the output (all 128 columns). The body rounds both operands to bf16 — the identity on
  the extended reals — and multiplies them into a zero accumulator, so entry (p, q) of what point t writes is the sum
  over k of x[5000·t + p, k] · W1[k, q]: block t of the matrix product x · W1. The 20 blocks tile the 100000 rows, so
  after the region the output array is the whole product.
-/
import proofs.«163526_j33500744908950_1_alg».proof.Proof.Gen.KernelIdeal.Frame
import proofs.«163526_j33500744908950_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)
open Cert.ReferenceIdeal.Spec (feat)

/-! ## The body's product at an index -/

theorem lhs0_0 (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs0_1 (i : S5000x128.Idx) (q : dot_S5000x256_S256x128_S5000x128_1_0_0_1_n_n.contr.Idx) : (dot_S5000x256_S256x128_S5000x128_1_0_0_1_n_n.lhsIdx i q 1).val = (q ⟨0, by decide⟩).val :=
  dot_S5000x256_S256x128_S5000x128_1_0_0_1_n_n.lhsIdx_val_of_single rfl i q
theorem rhs0_0 (i : S5000x128.Idx) (q : dot_S5000x256_S256x128_S5000x128_1_0_0_1_n_n.contr.Idx) : (dot_S5000x256_S256x128_S5000x128_1_0_0_1_n_n.rhsIdx i q 0).val = (q ⟨0, by decide⟩).val :=
  dot_S5000x256_S256x128_S5000x128_1_0_0_1_n_n.rhsIdx_val_of_single rfl i q
theorem rhs0_1 (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry (p, q) of the body's stored value: the sum over k of the loaded x block at (p, k) times the loaded W1 at
    (k, q) — the rounding to bf16 is the identity, the accumulator is zero. -/
theorem pay0_apply (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  refine (Ideal.matmul_constant_zero_apply dot_S5000x256_S256x128_S5000x128_1_0_0_1_n_n none _ _ (ix2 p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs0_0 _ _
    | ⟨1, _⟩ => exact (lhs0_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs0_0 _ _).trans hk
    | ⟨1, _⟩ => exact rhs0_1 _ _)
  rw [el, er]
  rfl

/-- The whole product at an index whose coordinates are named. -/
theorem feat_apply (x : (⟨2, ![100000, 256]⟩ : Shape).Idx → EReal) (w : (⟨2, ![256, 128]⟩ : Shape).Idx → EReal)
    (i : (⟨2, ![100000, 128]⟩ : Shape).Idx) (r : Fin 100000) (q : Fin 128) (hr : (i 0).val = r.val) (hq : (i 1).val = q.val) :
    feat x w i = ∑ k : Fin 256, x (ix2 r k) * w (ix2 k q) := by
  unfold feat
  have e0 : (⟨(i 0).val, idx2_lt0 i⟩ : Fin 100000) = r := Fin.ext hr
  have e1 : (⟨(i 1).val, idx2_lt1 i⟩ : Fin 128) = q := Fin.ext hq
  rw [e0, e1]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl

/-- The index maps over the 20 points: the x block and the output block are on the same row block, which is the
    point's number; every other block index is zero. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block is some point's. -/
theorem idx_onto0 : ∀ (q0 : Fin 20), ∃ t : Fin cfg0.N, win0_2.index t = ![q0.val, 0] :=
  (by decide +kernel : ∀ (q0 : Fin 20), ∃ t : Fin grid0.N, win0_2.index t = ![q0.val, 0])

/-- The x block at point `t`, entry (p, k), is x at row (block index) · 5000 + p, column k. -/
theorem read0_0 (c : Dev nD) (t : Fin cfg0.N) (p : Fin 5000) (k : Fin 256) (r : Fin 100000)
    (hr : r.val = win0_0.index t (0 : Fin 2) * 5000 + p.val) (h1 : win0_0.index t (1 : Fin 2) = 0) :
    iblk0 V c 0 t (ix2 p k) = V c main_arg0 (ix2 r k) := by
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- The W1 block at every point is W1 itself. -/
theorem read0_1 (c : Dev nD) (t : Fin cfg0.N) (k : Fin 256) (q : Fin 128)
    (h0 : win0_1.index t (0 : Fin 2) = 0) (h1 : win0_1.index t (1 : Fin 2) = 0) :
    iblk0 V c 1 t (ix2 k q) = V c main_arg3 (ix2 k q) := by
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 256 + 1 * k.val = k.val; omega
  | ⟨1, _⟩ => show win0_1.index t (1 : Fin 2) * 128 + 1 * q.val = q.val; omega

/-- What point `t` writes back is block `t` of the product of the two argument arrays as the region finds them. -/
theorem flushed0_eq (c : Dev nD) (t : Fin cfg0.N) :
    (dat0 V c).flushed 2 t = ((cfg0.win 2).blk t).view.read (Elt Ideal) (feat (V c main_arg0) (V c main_arg3)) := by
  show (cfg0.win 2).cut (grid0.coords t) ((dat0 V c).after 2 t) = _
  rw [after0_2]
  unfold out0_2
  rw [View.canon_unit_zero hz2]
  simp only [View.ld_unit_zero (S := S5000x256) hz2, View.ld_unit_zero (S := S256x128) hz2]
  obtain ⟨e0, e1, e2, e3, e4, e5⟩ := idx_facts0 t
  funext j
  obtain ⟨p, q, rfl⟩ : ∃ (p : Fin 5000) (q : Fin 128), j = ix2 p q := ⟨j 0, j 1, eq_ix2 j⟩
  have hp : p.val < 5000 := p.isLt
  show k0_pay1 (iblk0 V c 0 t) (iblk0 V c 1 t) (ix2 p q) = feat (V c main_arg0) (V c main_arg3) (((cfg0.win 2).blk t).view.emb (ix2 p q))
  refine (pay0_apply _ _ p q).trans ?_
  refine Eq.trans ?_ (feat_apply (V c main_arg0) (V c main_arg3) (((cfg0.win 2).blk t).view.emb (ix2 p q))
    ⟨win0_2.index t (0 : Fin 2) * 5000 + p.val, by omega⟩ q ?_ ?_).symm
  · refine Finset.sum_congr rfl fun k _ => ?_
    exact congrArg₂ (fun a b : EReal => a * b)
      (read0_0 V c t p k ⟨win0_2.index t (0 : Fin 2) * 5000 + p.val, by omega⟩ (by show win0_2.index t (0 : Fin 2) * 5000 + p.val = win0_0.index t (0 : Fin 2) * 5000 + p.val; omega) e1)
      (read0_1 V c t k q e2 e3)
  · show win0_2.index t (0 : Fin 2) * 5000 + 1 * p.val = win0_2.index t (0 : Fin 2) * 5000 + p.val; omega
  · show win0_2.index t (1 : Fin 2) * 128 + 1 * q.val = q.val; omega

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every index of the output array is in some point's block: row r is in block r / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its output array is the product of the two argument arrays as the region finds them. -/
theorem final0 (c : Dev nD) : (dat0 V c).arrAt 2 cfg0.N = feat (V c main_arg0) (V c main_arg3) :=
  (dat0 V c).arrAt_eq_of_cover 2 (feat (V c main_arg0) (V c main_arg3)) (fun t _ => flushed0_eq V c t) cover0

end Cert.KernelIdeal.Val

end
-- ==== Proof.KBlocks1.lean ====
/-
  The second region: the linear head, block by block.

  The grid has 20 points; point t loads rows 5000·t … 5000·t + 4999 of the aggregated features (all 128 columns), the
  whole of W2 and the one bias row, and writes back rows 5000·t … of the result (both columns). The body rounds the two
  matrix operands to bf16 — the identity on the extended reals —, multiplies them into a zero accumulator and adds the
  bias row spread over the 5000 rows, so entry (p, q) of what point t writes is the sum over k of a[5000·t + p, k] ·
  W2[k, q], plus the bias at column q: block t of a · W2 + b2. The 20 blocks tile the 100000 rows.
-/
import proofs.«163526_j33500744908950_1_alg».proof.Proof.Gen.KernelIdeal.Frame
import proofs.«163526_j33500744908950_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)
open Cert.ReferenceIdeal.Spec (head)

/-! ## The body's value at an index -/

theorem lhs1_0 (i : S5000x2.Idx) (q : dot_S5000x128_S128x2_S5000x2_1_0_0_1_n_n.contr.Idx) : (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem lhs1_1 (i : S5000x2.Idx) (q : dot_S5000x128_S128x2_S5000x2_1_0_0_1_n_n.contr.Idx) : (dot_S5000x128_S128x2_S5000x2_1_0_0_1_n_n.lhsIdx i q 1).val = (q ⟨0, by decide⟩).val :=
  dot_S5000x128_S128x2_S5000x2_1_0_0_1_n_n.lhsIdx_val_of_single rfl i q
theorem rhs1_0 (i : S5000x2.Idx) (q : dot_S5000x128_S128x2_S5000x2_1_0_0_1_n_n.contr.Idx) : (dot_S5000x128_S128x2_S5000x2_1_0_0_1_n_n.rhsIdx i q 0).val = (q ⟨0, by decide⟩).val :=
  dot_S5000x128_S128x2_S5000x2_1_0_0_1_n_n.rhsIdx_val_of_single rfl i q
theorem rhs1_1 (i : S5000x2.Idx) (q : dot_S5000x128_S128x2_S5000x2_1_0_0_1_n_n.contr.Idx) : (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- The body's matrix product at (p, q): the sum over k of the left block at (p, k) times the right at (k, q). -/
theorem prod1_apply (y0 : FVec Ideal S5000x128 .bf16) (y1 : FVec Ideal S128x2 .bf16) (p : Fin 5000) (q : Fin 2) :
    matmul dot_S5000x128_S128x2_S5000x2_1_0_0_1_n_n none y0 y1 (constant S5000x2 .f32 0x00000000#32) (ix2 p q) = ∑ k : Fin 128, y0 (ix2 p k) * y1 (ix2 k q) := by
  refine (Ideal.matmul_constant_zero_apply dot_S5000x128_S128x2_S5000x2_1_0_0_1_n_n none _ _ (ix2 p q)).trans ?_
  rw [← Equiv.sum_comp (contrEquiv1 dot_S5000x128_S128x2_S5000x2_1_0_0_1_n_n 128 rfl rfl).symm]
  refine Finset.sum_congr rfl fun k _ => ?_
  have hk := contrEquiv1_symm_val dot_S5000x128_S128x2_S5000x2_1_0_0_1_n_n 128 rfl rfl k
  have el : dot_S5000x128_S128x2_S5000x2_1_0_0_1_n_n.lhsIdx (ix2 p q) ((contrEquiv1 dot_S5000x128_S128x2_S5000x2_1_0_0_1_n_n 128 rfl rfl).symm k) = ix2 p k := funext fun a => Fin.ext (by
    match a with
    | ⟨0, _⟩ => exact lhs1_0 _ _
    | ⟨1, _⟩ => exact (lhs1_1 _ _).trans hk)
  have er : dot_S5000x128_S128x2_S5000x2_1_0_0_1_n_n.rhsIdx (ix2 p q) ((contrEquiv1 dot_S5000x128_S128x2_S5000x2_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-- Entry (p, q) of the body's stored value: the product's entry plus the bias row at column q (the two shape casts
    are between equal shapes; the row is spread over the 5000 rows). -/
theorem pay1_apply (x0 : Vec Ideal S5000x128 .f32) (x1 : Vec Ideal S128x2 .f32) (x2 : Vec Ideal S1x2 .f32) (p : Fin 5000) (q : Fin 2) :
    k1_pay1 x0 x1 x2 (ix2 p q) = (∑ k : Fin 128, x0 (ix2 p k) * x1 (ix2 k q)) + x2 (ix2 (0 : Fin 1) q) := by
  unfold k1_pay1
  simp only [shapeCast_self]
  show matmul (F := Ideal) dot_S5000x128_S128x2_S5000x2_1_0_0_1_n_n none (truncf (F := Ideal) .bf16 x0 bitsLt_bf16_f32) (truncf (F := Ideal) .bf16 x1 bitsLt_bf16_f32)
        (constant (F := Ideal) S5000x2 .f32 0x00000000#32) (ix2 p q)
      + broadcastTo S5000x2 x2 broadcasts_S1x2_S5000x2 (ix2 p q) = _
  rw [prod1_apply, broadcastTo_1b_ab_apply]
  rfl

/-- The head at an index whose coordinates are named. -/
theorem head_apply (a : (⟨2, ![100000, 128]⟩ : Shape).Idx → EReal) (w : (⟨2, ![128, 2]⟩ : Shape).Idx → EReal) (b : (⟨1, ![2]⟩ : Shape).Idx → EReal)
    (i : (⟨2, ![100000, 2]⟩ : Shape).Idx) (r : Fin 100000) (q : Fin 2) (hr : (i 0).val = r.val) (hq : (i 1).val = q.val) :
    head a w b i = (∑ k : Fin 128, a (ix2 r k) * w (ix2 k q)) + b (ix1 q) := by
  unfold head
  have e0 : (⟨(i 0).val, idx2_lt0 i⟩ : Fin 100000) = r := Fin.ext hr
  have e1 : (⟨(i 1).val, idx2_lt1 i⟩ : Fin 2) = q := Fin.ext hq
  rw [e0, e1]

/-! ## From the blocks to the array -/

variable (V : (c : Dev nD) → (b : Ref sig .tc) → Buf (Elt Ideal) ((c : Thread nD τ).loc b))

theorem hz2' : (![0, 0] : Fin 2 → Nat) = fun _ => 0 := funext fun a => by fin_cases a <;> rfl

/-- The index maps over the 20 points: the feature block and the result block are on the same row block; every other
    block index is zero. -/
theorem idx_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 19 :=
  (by decide +kernel : ∀ t : Fin grid1.N, _)

/-- Every row block is some point's. -/
theorem idx_onto1 : ∀ (q0 : Fin 20), ∃ t : Fin cfg1.N, win1_3.index t = ![q0.val, 0] :=
  (by decide +kernel : ∀ (q0 : Fin 20), ∃ t : Fin grid1.N, win1_3.index t = ![q0.val, 0])

/-- The feature block at point `t`, entry (p, k), is the features at row (block index) · 5000 + p, column k. -/
theorem read1_0 (c : Dev nD) (t : Fin cfg1.N) (p : Fin 5000) (k : Fin 128) (r : Fin 100000)
    (hr : r.val = win1_0.index t (0 : Fin 2) * 5000 + p.val) (h1 : win1_0.index t (1 : Fin 2) = 0) :
    iblk1 V c 0 t (ix2 p k) = V c main_v48 (ix2 r k) := by
  show V c main_v48 (((cfg1.win 0).blk t).view.emb (ix2 p k)) = V c main_v48 (ix2 r k)
  refine congrArg (V c main_v48) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The W2 block at every point is W2 itself. -/
theorem read1_1 (c : Dev nD) (t : Fin cfg1.N) (k : Fin 128) (q : Fin 2)
    (h0 : win1_1.index t (0 : Fin 2) = 0) (h1 : win1_1.index t (1 : Fin 2) = 0) :
    iblk1 V c 1 t (ix2 k q) = V c main_arg5 (ix2 k q) := by
  show V c main_arg5 (((cfg1.win 1).blk t).view.emb (ix2 k q)) = V c main_arg5 (ix2 k q)
  refine congrArg (V c main_arg5) (funext fun a => Fin.ext ?_)
  match a with
  | ⟨0, _⟩ => show win1_1.index t (0 : Fin 2) * 128 + 1 * k.val = k.val; omega
  | ⟨1, _⟩ => show win1_1.index t (1 : Fin 2) * 2 + 1 * q.val = q.val; omega

/-- The bias block at every point is the bias row itself. -/
theorem read1_2 (c : Dev nD) (t : Fin cfg1.N) (q : Fin 2)
    (h0 : win1_2.index t (0 : Fin 2) = 0) (h1 : win1_2.index t (1 : Fin 2) = 0) :
    iblk1 V c 2 t (ix2 (0 : Fin 1) q) = V c main_v49 (ix2 (0 : Fin 1) q) := by
  show V c main_v49 (((cfg1.win 2).blk t).view.emb (ix2 (0 : Fin 1) q)) = V c main_v49 (ix2 (0 : Fin 1) q)
  refine congrArg (V c main_v49) (funext fun a => Fin.ext ?_)
  match a with
  | ⟨0, _⟩ => show win1_2.index t (0 : Fin 2) * 1 + 1 * 0 = 0; omega
  | ⟨1, _⟩ => show win1_2.index t (1 : Fin 2) * 2 + 1 * q.val = q.val; omega

/-- What point `t` writes back is block `t` of the head of the three operand arrays as the region finds them, the
    bias operand being one row whose entry (0, q) is `b` at q. -/
theorem flushed1_eq (c : Dev nD) (b : S2.Idx → EReal)
    (hb : ∀ q : Fin 2, V c main_v49 (ix2 (0 : Fin 1) q) = b (ix1 q)) (t : Fin cfg1.N) :
    (dat1 V c).flushed 3 t = ((cfg1.win 3).blk t).view.read (Elt Ideal) (head (V c main_v48) (V c main_arg5) b) := by
  show (cfg1.win 3).cut (grid1.coords t) ((dat1 V c).after 3 t) = _
  rw [after1_3]
  unfold out1_3
  rw [View.canon_unit_zero hz2']
  simp only [View.ld_unit_zero (S := S5000x128) hz2', View.ld_unit_zero (S := S128x2) hz2', View.ld_unit_zero (S := S1x2) hz2']
  obtain ⟨e0, e1, e2, e3, e4, e5, e6, e7⟩ := idx_facts1 t
  funext j
  obtain ⟨p, q, rfl⟩ : ∃ (p : Fin 5000) (q : Fin 2), j = ix2 p q := ⟨j 0, j 1, eq_ix2 j⟩
  have hp : p.val < 5000 := p.isLt
  show k1_pay1 (iblk1 V c 0 t) (iblk1 V c 1 t) (iblk1 V c 2 t) (ix2 p q)
    = head (V c main_v48) (V c main_arg5) b (((cfg1.win 3).blk t).view.emb (ix2 p q))
  refine (pay1_apply _ _ _ p q).trans ?_
  refine Eq.trans ?_ (head_apply (V c main_v48) (V c main_arg5) b (((cfg1.win 3).blk t).view.emb (ix2 p q))
    ⟨win1_3.index t (0 : Fin 2) * 5000 + p.val, by omega⟩ q ?_ ?_).symm
  · exact congrArg₂ (fun a b : EReal => a + b)
      (Finset.sum_congr rfl fun k _ => congrArg₂ (fun a b : EReal => a * b)
        (read1_0 V c t p k ⟨win1_3.index t (0 : Fin 2) * 5000 + p.val, by omega⟩ (by show win1_3.index t (0 : Fin 2) * 5000 + p.val = win1_0.index t (0 : Fin 2) * 5000 + p.val; omega) e1)
        (read1_1 V c t k q e2 e3))
      ((read1_2 V c t q e4 e5).trans (hb q))
  · show win1_3.index t (0 : Fin 2) * 5000 + 1 * p.val = win1_3.index t (0 : Fin 2) * 5000 + p.val; omega
  · show win1_3.index t (1 : Fin 2) * 2 + 1 * q.val = q.val; omega

/-- An index of the result array is in point `t`'s block iff each coordinate is in the block's range on its axis. -/
theorem mem_blk1 (t : Fin cfg1.N) (i : S100000x2.Idx) :
    i ∈ ((cfg1.win 3).blk t).view.set ↔ ∀ a : Fin 2, win1_3.index t a * S5000x2.size a ≤ (i a).val ∧ (i a).val < win1_3.index t a * S5000x2.size a + S5000x2.size a := by
  show i ∈ ((View.whole main_v50).slice (win1_3.rect t)).set ↔ _
  rw [View.set_slice_whole, Rect.mem_set_unit]
  exact Iff.rfl

/-- Every index of the result array is in some point's block: row r is in block r / 5000. -/
theorem cover1 (i : S100000x2.Idx) : ∃ t : Fin cfg1.N, (cfg1.win 3).flush t = true ∧ i ∈ ((cfg1.win 3).blk t).view.set := by
  have hi0 : (i 0).val < 100000 := (i 0).isLt
  have hi1 : (i 1).val < 2 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 2 ≤ (i 1).val ∧ (i 1).val < win1_3.index t (1 : Fin 2) * 2 + 2; omega

/-- After the region its output array is the head of the three operand arrays as the region finds them. -/
theorem final1 (c : Dev nD) (b : S2.Idx → EReal)
    (hb : ∀ q : Fin 2, V c main_v49 (ix2 (0 : Fin 1) q) = b (ix1 q)) :
    (dat1 V c).arrAt 3 cfg1.N = head (V c main_v48) (V c main_arg5) b :=
  (dat1 V c).arrAt_eq_of_cover 3 (head (V c main_v48) (V c main_arg5) b) (fun t _ => flushed1_eq V c b hb t) cover1

end Cert.KernelIdeal.Val

end
-- ==== Proof.KHost.lean ====
/-
  What the two regions find in the buffers they read.

  Before the first region the host computes, from the edge list and the edge weights, the sources, the destinations and
  the normalisation of the 1700000 messages; no host operation writes an argument. So the first region finds x and W1
  as launched. Between the regions the host gathers the first region's output at the sources, scales, scatters into the
  destinations and adds the bias: the second region's first operand is the aggregation `agg` of the first region's
  output array, its second is W2 as launched, and its third is b2 recast from [2] to [1, 2].
-/
import proofs.«163526_j33500744908950_1_alg».proof.Proof.Gen.KernelIdeal.Frame
import proofs.«163526_j33500744908950_1_alg».proof.Proof.Spec
import Idealize.ShloMosaic.Lib.StableHlo.Run
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Cert.ReferenceIdeal.Read (val_main_v31 val_main_v5 val_main_v6)
open Cert.ReferenceIdeal.Spec (agg)

variable {F : FTy → Type} [FloatOps F]
variable (m : (ℓ : Loc nD τ sig) → Buf (Elt F) ℓ) (ρ : Dev nD → PrngReg)

/-! ## Before the first region -/

set_option maxHeartbeats 4000000 in
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results_simp <;> rfl

set_option maxHeartbeats 4000000 in
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results_simp <;> rfl

set_option maxHeartbeats 4000000 in
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results_simp <;> rfl

set_option maxHeartbeats 4000000 in
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results_simp <;> rfl

set_option maxHeartbeats 4000000 in
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  simp only [hostOps0, hostOps0_1, hostOps0_2]
  after_results_simp <;> rfl

set_option maxHeartbeats 8000000 in
/-- The sources of the messages (the edge list's first row, then one self loop per node). -/
theorem W3_v5 (c : Dev nD) : W3 m ρ c (Proc.devRef .tc main_v5) = val_main_v5 (F := F) (m ((c : Thread nD τ).loc main_arg1)) := by
  show StableHlo.after hostOps0_2 (StableHlo.after hostOps0_1 (StableHlo.after hostOps0 (W0 m ρ c))) (Proc.devRef .tc main_v5) = _
  simp only [hostOps0, hostOps0_1, hostOps0_2]
  after_results_simp <;> rfl

set_option maxHeartbeats 8000000 in
/-- The destinations of the messages (the edge list's second row, then one self loop per node). -/
theorem W3_v6 (c : Dev nD) : W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results_simp <;> rfl

set_option maxHeartbeats 26400000 in
/-- The normalisation of the messages: d^(-1/2)[src] · w · d^(-1/2)[dst]. -/
theorem W3_v31 (c : Dev nD) : W3 m ρ c (Proc.devRef .tc main_v31)
    = val_main_v31 (F := F) (m ((c : Thread nD τ).loc main_arg1)) (m ((c : Thread nD τ).loc main_arg2)) := by
  show StableHlo.after hostOps0_2 (StableHlo.after hostOps0_1 (StableHlo.after hostOps0 (W0 m ρ c))) (Proc.devRef .tc main_v31) = _
  simp only [hostOps0, hostOps0_1, hostOps0_2]
  after_results_simp <;> rfl

/-- The first region finds x as launched. -/
theorem V3_arg0 (c : Dev nD) : V3 m ρ c main_arg0 = m ((c : Thread nD τ).loc main_arg0) := W3_arg0 m ρ c
/-- The first region finds W1 as launched. -/
theorem V3_arg3 (c : Dev nD) : V3 m ρ c main_arg3 = m ((c : Thread nD τ).loc main_arg3) := W3_arg3 m ρ c

/-! ## Between the regions -/

set_option maxHeartbeats 8000000 in
/-- The second region's first operand is the aggregation of the first region's output array. -/
theorem V5_v48 (c : Dev nD) : V5 m ρ c main_v48
    = agg (F := F) (W4 m ρ c (Proc.devRef .tc main_v32)) (m ((c : Thread nD τ).loc main_arg1)) (m ((c : Thread nD τ).loc main_arg2))
        (m ((c : Thread nD τ).loc main_arg4)) := by
  show StableHlo.after hostOps1 (W4 m ρ c) (Proc.devRef .tc main_v48) = _
  simp only [hostOps1]
  after_results_simp
  rw [W4_of_ne m ρ c main_v31 (by decide), W4_of_ne m ρ c main_v5 (by decide), W4_of_ne m ρ c main_v6 (by decide),
    W4_of_ne m ρ c main_arg4 (by decide)]
  rw [W3_v31, W3_v5, W3_v6, W3_arg4]
  rfl

set_option maxHeartbeats 4000000 in
/-- The second region finds W2 as launched. -/
theorem V5_arg5 (c : Dev nD) : V5 m ρ c main_arg5 = m ((c : Thread nD τ).loc main_arg5) := by
  show StableHlo.after hostOps1 (W4 m ρ c) (Proc.devRef .tc main_arg5) = _
  simp only [hostOps1]
  after_results_simp
  rw [W4_of_ne m ρ c main_arg5 (by decide)]
  exact W3_arg5 m ρ c

set_option maxHeartbeats 4000000 in
/-- The second region's third operand is b2 as one row: entry (0, q) is b2[q]. -/
theorem V5_v49 (c : Dev nD) (q : Fin 2) : V5 m ρ c main_v49 (ix2 (0 : Fin 1) q) = m ((c : Thread nD τ).loc main_arg6) (ix1 q) := by
  have e : V5 m ρ c main_v49 = shapeCast S1x2 (m ((c : Thread nD τ).loc main_arg6)) shapeCasts_S2_S1x2 := by
    show StableHlo.after hostOps1 (W4 m ρ c) (Proc.devRef .tc main_v49) = _
    simp only [hostOps1]
    after_results_simp
    rw [W4_of_ne m ρ c main_arg6 (by decide), W3_arg6]
    rfl
  rw [e]
  exact shapeCast_a_1a_apply _ _ (0 : Fin 1) q

end Cert.KernelIdeal.Val

end
-- ==== Proof.KValue.lean ====
/-
  The idealized kernel's result as one function of its arguments.

  The result buffer ends at the second region's output array after its write-backs, which is the head of the three
  arrays that region finds: the aggregation of the first region's output array, W2, and b2 as one row. The first
  region's output array after its write-backs is the product of x and W1 as that region finds them, which is as
  launched. So the result is `out` of the seven arguments.
-/
import proofs.«163526_j33500744908950_1_alg».proof.Proof.KRun
import proofs.«163526_j33500744908950_1_alg».proof.Proof.KBlocks0
import proofs.«163526_j33500744908950_1_alg».proof.Proof.KBlocks1
import proofs.«163526_j33500744908950_1_alg».proof.Proof.KHost

set_option maxRecDepth 16384

noncomputable section

namespace Cert.KernelIdeal.Val

open Cert.KernelIdeal Cert.KernelIdeal.Gen
open Idealize.ShloMosaic Idealize.ShloMosaic.TcCoe Idealize.SL.Sem
open Cert.ReferenceIdeal.Spec (out head feat agg)

variable (m : (ℓ : Loc nD τ sig) → Buf (Elt Ideal) ℓ) (ρ : Dev nD → PrngReg)

/-- The first region's output array after the region: x · W1 of the launch contents. -/
theorem features_eq (c : Dev nD) : W4 m ρ c (Proc.devRef .tc main_v32)
    = feat (m ((c : Thread nD τ).loc main_arg0)) (m ((c : Thread nD τ).loc main_arg3)) := by
  refine (W4_arr m ρ c 2).trans ?_
  rw [final0 (V3 m ρ) c, V3_arg0, V3_arg3]

/-- The result buffer at the end of the run: `out` of the launch contents of the seven arguments. -/
theorem result_eq (c : Dev nD) : W6 m ρ c (Proc.devRef .tc main_v50)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W6_arr m ρ c 3).trans ?_
  rw [final1 (V5 m ρ) c (m ((c : Thread nD τ).loc main_arg6)) (V5_v49 m ρ c), V5_v48, V5_arg5, features_eq]
  rfl

/-- Every weakly fair execution of the idealized kernel terminates without a fault, with the result at `out` of the
    arguments and the arguments unchanged. -/
theorem run : θ_run defs (onTc (τ := τ) (main (F := Ideal))) ⟨m, fun _ => 0, ρ⟩ (fun r => ∀ c : Dev nD,
      r.2.mem ((c.tc : Thread nD τ).loc main_v50)
        = out (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run_main m ρ)

end Cert.KernelIdeal.Val

end
-- ==== Proof.lean ====
/-
  The two programs compute the same graph convolution with a linear head: h = x · W1; the messages norm[e] · h[src e]
  summed into their destination rows, plus b1; then that · W2 + b2. The kernel takes the two matrix products in two
  pallas regions (row blocks of 5000, operands rounded to bf16, a zero accumulator) and everything between on the
  host; the reference takes both as host dot products. On the extended reals rounding is the identity and both forms
  of a product are the same sum over the contracted index, and the host chain between the products is the same
  function in both programs. So both results are `out` of the seven arguments (Proof/Spec.lean): the reference's by
  reading its run (Proof/Spec.lean), the kernel's by reading each region's blocks (Proof/KBlocks0.lean,
  Proof/KBlocks1.lean), what the regions find in their operands (Proof/KHost.lean), and the run itself
  (Proof/KRun.lean, Proof/KValue.lean). The idealization rewrote nothing, and the frames are the programs' runs.
-/
import proofs.«163526_j33500744908950_1_alg».proof.Defs
import proofs.«163526_j33500744908950_1_alg».proof.Proof.Gen.Kernel
import proofs.«163526_j33500744908950_1_alg».proof.Proof.Gen.Kernel.Skeleton
import proofs.«163526_j33500744908950_1_alg».proof.Proof.Gen.Kernel.Launch
import proofs.«163526_j33500744908950_1_alg».proof.Proof.Gen.Kernel.Points
import proofs.«163526_j33500744908950_1_alg».proof.Proof.Gen.Kernel.Frame
import proofs.«163526_j33500744908950_1_alg».proof.Proof.Gen.KernelIdeal
import proofs.«163526_j33500744908950_1_alg».proof.Proof.Gen.KernelIdeal.Skeleton
import proofs.«163526_j33500744908950_1_alg».proof.Proof.Gen.KernelIdeal.Launch
import proofs.«163526_j33500744908950_1_alg».proof.Proof.Gen.KernelIdeal.Points
import proofs.«163526_j33500744908950_1_alg».proof.Proof.Gen.KernelIdeal.Frame
import proofs.«163526_j33500744908950_1_alg».proof.Proof.Gen.ReferenceIdeal
import proofs.«163526_j33500744908950_1_alg».proof.Proof.Gen.ReferenceIdeal.Run
import proofs.«163526_j33500744908950_1_alg».proof.Proof.Gen.ReferenceIdeal.Read
import proofs.«163526_j33500744908950_1_alg».proof.Proof.Gen.Pre_finite_inputs
import proofs.«163526_j33500744908950_1_alg».proof.Proof.Spec
import proofs.«163526_j33500744908950_1_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end with `out` of arguments that agree. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v52_eq, Cert.ReferenceIdeal.Spec.val_main_v52_eq_out, h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
